-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_17" .f32 0x3D70F0F1#32 ((1 / 17 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8192 : Shape := ⟨2, ![1024, 8192]⟩
abbrev S8192x1024 : Shape := ⟨2, ![8192, 1024]⟩
abbrev S8192 : Shape := ⟨1, ![8192]⟩
abbrev S1024x1024 : Shape := ⟨2, ![1024, 1024]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192 : S_.BroadcastsInDim S8192 (![] : Fin 0 → Fin S8192.rank)
  reducesTo_S8192_S_d0 : S8192.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S1024x8192 .f32) (main_arg1 : FVec F S8192x1024 .f32) (main_arg2 : FVec F S8192 .f32) (main_arg3 : FVec F S1024x1024 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S1024x8192 : Shape := ⟨2, ![1024, 8192]⟩
abbrev S8192x1024 : Shape := ⟨2, ![8192, 1024]⟩
abbrev S8192 : Shape := ⟨1, ![8192]⟩
abbrev S1024x1024 : Shape := ⟨2, ![1024, 1024]⟩
abbrev S512x1024 : Shape := ⟨2, ![512, 1024]⟩
abbrev S8192x1 : Shape := ⟨2, ![8192, 1]⟩
abbrev S8192x8192 : Shape := ⟨2, ![8192, 8192]⟩
abbrev S1024x512 : Shape := ⟨2, ![1024, 512]⟩
abbrev S1024x1 : Shape := ⟨2, ![1024, 1]⟩
abbrev S_ : Shape := ⟨0, ![]⟩

abbrev nBuf : Space → Nat
  | .hbm => 13
  | .vmem => 15
  | .smem => 0
  | _ => 0

abbrev bufTy : (tb : Table) → Fin (tcTables nBuf tb) → BufTy
  | .hbm, ⟨0, _⟩ => ⟨S1024x8192, .f32⟩
  | .hbm, ⟨1, _⟩ => ⟨S8192x1024, .f32⟩
  | .hbm, ⟨2, _⟩ => ⟨S8192, .f32⟩
  | .hbm, ⟨3, _⟩ => ⟨S1024x1024, .f32⟩
  | .hbm, ⟨4, _⟩ => ⟨S8192x1024, .f32⟩
  | .hbm, ⟨5, _⟩ => ⟨S1024x8192, .bf16⟩
  | .hbm, ⟨6, _⟩ => ⟨S8192x1, .f32⟩
  | .hbm, ⟨7, _⟩ => ⟨S8192x8192, .f32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i1⟩
  | .hbm, ⟨12, _⟩ => ⟨S8192x8192, .i1⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x1024, .f32⟩
  | .local _ .vmem, ⟨4, _⟩ => ⟨S512x1024, .f32⟩
  | .local _ .vmem, ⟨5, _⟩ => ⟨S1024x1024, .f32⟩
  | .local _ .vmem, ⟨6, _⟩ => ⟨S1024x1024, .f32⟩
  | .local _ .vmem, ⟨7, _⟩ => ⟨S1024x512, .bf16⟩
  | .local _ .vmem, ⟨8, _⟩ => ⟨S1024x512, .bf16⟩
  | .local _ .vmem, ⟨9, _⟩ => ⟨S1024x1, .f32⟩
  | .local _ .vmem, ⟨10, _⟩ => ⟨S1024x1, .f32⟩
  | .local _ .vmem, ⟨11, _⟩ => ⟨S1024x512, .f32⟩
  | .local _ .vmem, ⟨12, _⟩ => ⟨S1024x512, .f32⟩
  | .local _ .vmem, ⟨13, _⟩ => ⟨S1024x512, .i32⟩
  | .local _ .vmem, ⟨14, _⟩ => ⟨S1024x512, .i32⟩
  | _, _ => ⟨S1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S8192_S8192x1 : S8192.ShapeCasts S8192x1
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x512 : S1024x1.Broadcasts S1024x512
  natLt_1_32 : 1 < 32
  bcast_S_S8192x8192 : S_.BroadcastsInDim S8192x8192 (![] : Fin 0 → Fin S8192x8192.rank)
  dot_S512x1024_S1024x1024_S512x1024_1_0_0_1_n_n_wf : DotDims.WF S512x1024 S1024x1024 S512x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x8192.size a
  hwx1_1 : ∀ i : grid1.Coords, EltTy.bits .bf16 = 32 ∨ (Rect.block (s := S1024x8192) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x8192.size a
  hwx1_3 : ∀ i : grid1.Coords, EltTy.bits .f32 = 32 ∨ (Rect.block (s := S8192x8192) S1024x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S8192x8192.size a
  hwx1_4 : ∀ i : grid1.Coords, EltTy.bits .i32 = 32 ∨ (Rect.block (s := S8192x8192) S1024x512.size (cc1_transform_4 i) (hinb1_4 i)).WholeWords (EltTy.packing .i32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1024x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1024x8192 : Shape := ⟨2, ![1024, 8192]⟩
abbrev S8192x1024 : Shape := ⟨2, ![8192, 1024]⟩
abbrev S8192 : Shape := ⟨1, ![8192]⟩
abbrev S1024x1024 : Shape := ⟨2, ![1024, 1024]⟩
abbrev S_ : Shape := ⟨0, ![]⟩
abbrev S8192x8192 : Shape := ⟨2, ![8192, 8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S8192x1024, .f32⟩
  | .hbm, ⟨2, _⟩ => ⟨S8192, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S8192x1024, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .i1⟩
  | .hbm, ⟨12, _⟩ => ⟨S_, .f32⟩
  | .hbm, ⟨13, _⟩ => ⟨S8192x8192, .f32⟩
  | .hbm, ⟨14, _⟩ => ⟨S8192x8192, .i1⟩
  | .hbm, ⟨15, _⟩ => ⟨S8192x8192, .i1⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .i1⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.KernelRun.lean ====
/-
  The kernel program's run to its last boundary.

  The program is the first call, two host operations (inputs in bf16, the divisors reshaped to a column), the second
  call, and four host operations that turn the second call's 32-bit words back into bits (word ≠ 0). Every weakly fair
  execution runs the four segments in order, each from the contents the one before left, and terminates with every
  buffer — the two results among them — at the last boundary's contents, the four arguments as launched.
-/
import proofs.«137822_j29025388986856_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run to the last boundary -/

set_option backward.isDefEq.respectTransparency.types false in
/-- Every weakly fair execution terminates, nothing faulting, with both results at the last boundary's contents and the
    arguments as launched: the launch over the four segments, the last thread state read against the final state. -/
theorem run_boundary : θ_run defs (onTc (τ := τ) (main (F := Ideal))) ⟨m, fun _ => 0, ρ⟩ (fun r => ∀ c : Dev nD,
      r.2.mem ((c.tc : Thread nD τ).loc main_v3_0) = W4 m ρ c (Proc.devRef .tc main_v3_0)
      ∧ r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3_0 (by decide)),
       h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Whole

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«137822_j29025388986856_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibBroadcast2.lean ====
/-
  Two rank-2 broadcasts read at an entry: a column [a, 1] spread over b lanes (what a row reduction kept with its unit
  axis becomes when it is spread back over the row), and a one-entry array [1, 1] spread over [a, b].
-/
import Idealize.ShloMosaic.Lib.Pipeline.Value
import Idealize.ShloMosaic.Lib.ValueIdx

noncomputable section

namespace Cert.LibBroadcast2

open Idealize.ShloMosaic Idealize.ShloMosaic.ValueIdx

/-- A column [a, 1] spread over b lanes reads, at (p, c), the column at (p, 0). -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array spread over [a, b] reads its one entry everywhere. -/
theorem bcast_11_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibBroadcast2

end
-- ==== Proof.Spec.lean ====
/-
  The function both programs compute, over the extended reals, entry by entry.

  From `adj` [8192, 1024], `w` [1024, 1024], `inputs` [1024, 8192] and `prob` [8192]:
    hidden (p, q) = sum over k of adj (p, k) * (w (k, q) * (1/17))        (the weights scaled by one seventeenth, then the first product)
    pre (p, q)    = sum over j of hidden (p, j) * inputs (j, q)            (the second product)
    out (p, q)    = (pre (p, q) if 0.6 < pre (p, q) <= 1, else 1) / prob p
    mask (p, q)   = 0.6 < pre (p, q)
  The threshold 0.6 is kept as the f32 word both programs carry; it is never evaluated.

  The one law that joins the two programs is here too: a quotient by the real 17 is the product with the real 1/17 on
  every extended real, so scaling the weights by the named seventeenth and dividing them by seventeen agree.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- One seventeenth. -/
def seventeenth : EReal := ((1 / 17 : ℝ) : EReal)

/-- The threshold 0.6, as the f32 word both programs carry. -/
def thresh : EReal := Ideal.ofBits .f32 0x3F19999A#32

/-- The upper end of the kept range and the fill value: the f32 word of 1. -/
def unit : EReal := Ideal.ofBits .f32 0x3F800000#32

/-- Entry (p, q) of adj times the scaled weights. -/
def hidden (adj : FVec Ideal ⟨2, ![8192, 1024]⟩ .f32) (w : FVec Ideal ⟨2, ![1024, 1024]⟩ .f32) (p : Fin 8192) (q : Fin 1024) : EReal :=
  ∑ k : Fin 1024, adj (ix2 p k) * (w (ix2 k q) * seventeenth)

/-- The first product as an array. -/
def hiddenArr (adj : FVec Ideal ⟨2, ![8192, 1024]⟩ .f32) (w : FVec Ideal ⟨2, ![1024, 1024]⟩ .f32) : FVec Ideal ⟨2, ![8192, 1024]⟩ .f32 :=
  fun i => hidden adj w (i 0) (i 1)

/-- Entry (p, q) of a [8192, 1024] array times inputs. -/
def preOf (h : FVec Ideal ⟨2, ![8192, 1024]⟩ .f32) (inputs : FVec Ideal ⟨2, ![1024, 8192]⟩ .f32) (p q : Fin 8192) : EReal :=
  ∑ j : Fin 1024, h (ix2 p j) * inputs (ix2 j q)

/-- The thresholded activation: x inside (0.6, 1], the fill value 1 outside. -/
def act (x : EReal) : EReal :=
  Scalar.select (IntOp.andi (FloatOps.cmpf (F := Ideal) (φ := .f32) .ogt x thresh) (FloatOps.cmpf (F := Ideal) (φ := .f32) .ole x unit)) x unit

/-- The first result at (p, q), from the second product's entry and the row's divisor. -/
def outOf (x : EReal) (d : EReal) : EReal := Ideal.div (act x) d

/-- The second result at (p, q), from the second product's entry. -/
def maskOf (x : EReal) : BitVec 1 := FloatOps.cmpf (F := Ideal) (φ := .f32) .ogt x thresh

/-- The first result array. -/
def outArr (inputs : FVec Ideal ⟨2, ![1024, 8192]⟩ .f32) (adj : FVec Ideal ⟨2, ![8192, 1024]⟩ .f32)
    (prob : FVec Ideal ⟨1, ![8192]⟩ .f32) (w : FVec Ideal ⟨2, ![1024, 1024]⟩ .f32) : FVec Ideal ⟨2, ![8192, 8192]⟩ .f32 :=
  fun i => outOf (preOf (hiddenArr adj w) inputs (i 0) (i 1)) (prob (ix1 (i 0)))

/-- The second result array. -/
def maskArr (inputs : FVec Ideal ⟨2, ![1024, 8192]⟩ .f32) (adj : FVec Ideal ⟨2, ![8192, 1024]⟩ .f32)
    (w : FVec Ideal ⟨2, ![1024, 1024]⟩ .f32) : IVec ⟨2, ![8192, 8192]⟩ 1 :=
  fun i => maskOf (preOf (hiddenArr adj w) inputs (i 0) (i 1))

/-- The f32 word 0x41880000 is seventeen. -/
theorem ofBits_17 : Ideal.ofBits .f32 0x41880000#32 = ((17 : ℝ) : EReal) := by
  simp [Ideal.ofBits, Ideal.ieee, -EReal.coe_mul]; norm_num

/-- A quotient by seventeen is the product with one seventeenth, on every extended real. -/
theorem div_17 (x : EReal) : Ideal.div x (Ideal.ofBits .f32 0x41880000#32) = x * seventeenth := by
  rw [ofBits_17]; exact Ideal.div_coe (by norm_num) x

/-- A one-bit word widened to 32 bits differs from zero exactly when it is set. -/
theorem ne_zero_of_widened (b : BitVec 1) : IntOp.cmpi .ne (b.setWidth 32) 0#32 = b := by
  rcases BitVec.eq_zero_or_eq_one b with h | h <;> subst h <;> decide

end Cert.Spec

end
-- ==== Proof.Payloads.lean ====
/-
  What the two kernel bodies compute, entry by entry, at the ideal values.

  The first body takes a block of 512 rows of adj and the whole weight matrix: entry (p, q) of what it stores is the sum
  over k of adj (p, k) * (w (k, q) * (1/17)) — a change of float format is the identity, and the named constant is one
  seventeenth by the certificate's table.
  The second body takes 1024 rows of the first product, 512 columns of inputs and the rows' divisors as a column [1024, 1]:
  its matrix product at (p, q) is the sum over j of lhs (p, j) * rhs (j, q); the first result is the thresholded
  activation of that entry divided by the divisor of row p (the column spread over the 512 lanes reads (p, 0)), the second
  the threshold test's bit widened to a 32-bit word.
-/
import proofs.«137822_j29025388986856_2_alg».proof.Proof.Gen.KernelIdeal.Skeleton
import proofs.«137822_j29025388986856_2_alg».proof.Proof.LibMatRows
import proofs.«137822_j29025388986856_2_alg».proof.Proof.LibBroadcast2
import proofs.«137822_j29025388986856_2_alg».proof.Proof.Spec
import Idealize.ShloMosaic.PureOps.IdealRules
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx Cert.Spec

/-- The first body's product is a plain [512, 1024] x [1024, 1024] product. -/
theorem rows_first : LibMatRows.RowsTimesMat dot_S512x1024_S1024x1024_S512x1024_1_0_0_1_n_n where
  rank := rfl
  size := rfl
  l0 i q := by
    unfold DotDims.lhsIdx
    rw [dif_neg (show ¬(0 : Fin S512x1024.rank) ∈ dot_S512x1024_S1024x1024_S512x1024_1_0_0_1_n_n.lhsBatch by decide),
      dif_pos (show (0 : Fin S512x1024.rank) ∈ dot_S512x1024_S1024x1024_S512x1024_1_0_0_1_n_n.lhsNonContracting by decide)]
    rfl
  l1 i q := dot_S512x1024_S1024x1024_S512x1024_1_0_0_1_n_n.lhsIdx_val_of_single rfl i q
  r0 i q := dot_S512x1024_S1024x1024_S512x1024_1_0_0_1_n_n.rhsIdx_val_of_single rfl i q
  r1 i q := by
    unfold DotDims.rhsIdx
    rw [dif_neg (show ¬(1 : Fin S1024x1024.rank) ∈ dot_S512x1024_S1024x1024_S512x1024_1_0_0_1_n_n.rhsBatch by decide),
      dif_pos (show (1 : Fin S1024x1024.rank) ∈ dot_S512x1024_S1024x1024_S512x1024_1_0_0_1_n_n.rhsNonContracting by decide)]
    rfl

/-- The second body's product is a plain [1024, 1024] x [1024, 512] product. -/
theorem rows_second : LibMatRows.RowsTimesMat dot_S1024x1024_S1024x512_S1024x512_1_0_0_1_n_n where
  rank := rfl
  size := rfl
  l0 i q := by
    unfold DotDims.lhsIdx
    rw [dif_neg (show ¬(0 : Fin S1024x1024.rank) ∈ dot_S1024x1024_S1024x512_S1024x512_1_0_0_1_n_n.lhsBatch by decide),
      dif_pos (show (0 : Fin S1024x1024.rank) ∈ dot_S1024x1024_S1024x512_S1024x512_1_0_0_1_n_n.lhsNonContracting by decide)]
    rfl
  l1 i q := dot_S1024x1024_S1024x512_S1024x512_1_0_0_1_n_n.lhsIdx_val_of_single rfl i q
  r0 i q := dot_S1024x1024_S1024x512_S1024x512_1_0_0_1_n_n.rhsIdx_val_of_single rfl i q
  r1 i q := by
    unfold DotDims.rhsIdx
    rw [dif_neg (show ¬(1 : Fin S1024x512.rank) ∈ dot_S1024x1024_S1024x512_S1024x512_1_0_0_1_n_n.rhsBatch by decide),
      dif_pos (show (1 : Fin S1024x512.rank) ∈ dot_S1024x1024_S1024x512_S1024x512_1_0_0_1_n_n.rhsNonContracting by decide)]
    rfl

/-- The named constant is one seventeenth, by the certificate's table. -/
theorem named_seventeenth : Named.named (F := Ideal) κ "inv_17" (φ := .f32) 0x3D70F0F1#32 = seventeenth :=
  IdealRules.named_const.ideal_named_scalar _ _ _ _ rfl

/-- The first body's stored value at (p, q): the block's row p against column q of the scaled weights. -/
theorem first_product (x0 : Vec Ideal S512x1024 .f32) (x1 : Vec Ideal S1024x1024 .f32) (p : Fin 512) (q : Fin 1024) :
    k0_pay1 (F := Ideal) x0 x1 (ix2 p q) = ∑ k : Fin 1024, x0 (ix2 p k) * (x1 (ix2 k q) * seventeenth) := by
  unfold k0_pay1
  refine (LibMatRows.matmul_rows rows_first _ _ p q).trans ?_
  refine Finset.sum_congr rfl fun k _ => ?_
  show x0 (ix2 p k) * (x1 (ix2 k q) * Named.named (F := Ideal) κ "inv_17" (φ := .f32) 0x3D70F0F1#32) = _
  rw [named_seventeenth]

/-- The second body's matrix product at (p, q). -/
theorem second_product (x0 : Vec Ideal S1024x1024 .f32) (x1 : Vec Ideal S1024x512 .bf16) (p : Fin 1024) (q : Fin 512) :
    k1_pay1 (F := Ideal) x0 x1 (ix2 p q) = ∑ j : Fin 1024, x0 (ix2 p j) * x1 (ix2 j q) := by
  unfold k1_pay1
  refine (LibMatRows.matmul_rows rows_second _ _ p q).trans ?_
  refine Finset.sum_congr rfl fun j _ => ?_
  show shapeCast S1024x1024 x0 shapeCasts_S1024x1024_S1024x1024 (ix2 p j) * shapeCast S1024x512 x1 shapeCasts_S1024x512_S1024x512 (ix2 j q) = _
  rw [shapeCast_self, shapeCast_self]

/-- The first result's stored value at (p, q). -/
theorem out_entry (x0 : Vec Ideal S1024x1024 .f32) (x1 : Vec Ideal S1024x512 .bf16) (x2 : Vec Ideal S1024x1 .f32)
    (p : Fin 1024) (q : Fin 512) :
    k1_pay2 (F := Ideal) x0 x1 x2 (ix2 p q) = outOf (k1_pay1 (F := Ideal) x0 x1 (ix2 p q)) (x2 (ix2 p (0 : Fin 1))) := by
  unfold k1_pay2
  show Ideal.div _ (broadcastTo S1024x512 (shapeCast S1024x1 x2 shapeCasts_S1024x1_S1024x1) broadcasts_S1024x1_S1024x512 (ix2 p q)) = _
  rw [LibBroadcast2.bcast_col_apply, shapeCast_self]
  rfl

/-- The second result's stored word at (p, q). -/
theorem mask_entry (x0 : Vec Ideal S1024x1024 .f32) (x1 : Vec Ideal S1024x512 .bf16) (p : Fin 1024) (q : Fin 512) :
    k1_pay3 (F := Ideal) x0 x1 (ix2 p q) = (maskOf (k1_pay1 (F := Ideal) x0 x1 (ix2 p q))).setWidth 32 := rfl

end Cert.KernelIdeal.Payload

end
-- ==== Proof.FirstCall.lean ====
/-
  The array the first call leaves: adj times the scaled weights, whatever the buffers hold when the call is entered.

  Grid point t of 16 stages rows 512 t … 512 t + 511 of adj, the whole weight matrix, and writes back rows
  512 t … 512 t + 511 of the result: entry (p, q) of its block is row 512 t + p of adj against column q of the scaled
  weights, which is entry (512 t + p, q) of the whole product. Row r of the result lies in the block of point r / 512,
  so the sixteen blocks cover the array and it ends holding the whole product.
-/
import proofs.«137822_j29025388986856_2_alg».proof.Proof.Gen.KernelIdeal.Frame
import proofs.«137822_j29025388986856_2_alg».proof.Proof.Payloads
import Idealize.ShloMosaic.Lib.Pipeline.Value

noncomputable section

namespace Cert.KernelIdeal.FirstCall

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The three index maps over the sixteen points: adj's and the result's blocks move down with the point, the weights' stays. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed_eq (c : Dev nD) (t : Fin cfg0.N) :
    (dat0 V c).flushed 2 t = ((cfg0.win 2).blk t).view.read (Elt Ideal) (hiddenArr (V c main_arg1) (V c main_arg3)) := by
  show (cfg0.win 2).cut (grid0.coords t) ((dat0 V c).after 2 t) = _
  rw [after0_2]
  unfold out0_2
  rw [View.canon_unit_zero zero_offsets]
  simp only [View.ld_unit_zero (S := S512x1024) zero_offsets, View.ld_unit_zero (S := S1024x1024) zero_offsets]
  obtain ⟨e0, e1, e2, e3, e4, e5⟩ := block_indices t
  funext j
  obtain ⟨p, q, rfl⟩ : ∃ (p : Fin 512) (q : Fin 1024), j = ix2 p q := ⟨j 0, j 1, eq_ix2 j⟩
  show k0_pay1 (F := Ideal) (iblk0 V c 0 t) (iblk0 V c 1 t) (ix2 p q) = hiddenArr (V c main_arg1) (V c main_arg3) (((cfg0.win 2).blk t).view.emb (ix2 p q))
  rw [Payload.first_product]
  unfold hiddenArr Spec.hidden
  refine Finset.sum_congr rfl fun k _ => ?_
  have ha : ((cfg0.win 0).blk t).view.emb (ix2 p k) = ix2 ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; rw [e0, e4]
    | ⟨1, _⟩ => show win0_0.index t (1 : Fin 2) * 1024 + 1 * k.val = k.val; rw [e1]; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 1024 + 1 * k.val = k.val; rw [e2]; omega
    | ⟨1, _⟩ => show win0_1.index t (1 : Fin 2) * 1024 + 1 * q.val = win0_2.index t (1 : Fin 2) * 1024 + 1 * q.val; rw [e3, e5]
  have key : ∀ (A : S8192x1024.Idx → EReal) (W : S1024x1024.Idx → EReal),
      A (((cfg0.win 0).blk t).view.emb (ix2 p k)) * (W (((cfg0.win 1).blk t).view.emb (ix2 k q)) * seventeenth)
        = A (ix2 ((((cfg0.win 2).blk t).view.emb (ix2 p q)) 0) k) * (W (ix2 k ((((cfg0.win 2).blk t).view.emb (ix2 p q)) 1)) * seventeenth) :=
    fun A W => by rw [ha, hw] <;> rfl
  exact key (V c main_arg1) (V c main_arg3)

/-- An entry of the result lies in point t's block iff each coordinate lies in the block's range. -/
theorem mem_block (t : Fin cfg0.N) (i : S8192x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v0).slice (win0_2.rect t)).set ↔ _
  rw [View.set_slice_whole, Rect.mem_set_unit]
  exact Iff.rfl

/-- Row r of the result lies in the block of point r / 512. -/
theorem covered (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hN : cfg0.N = 16 := N_0
  have ht : (i 0).val / 512 < cfg0.N := by rw [hN]; omega
  refine ⟨⟨(i 0).val / 512, ht⟩, flush0_2 _, ?_⟩
  rw [mem_block]
  obtain ⟨-, -, -, -, e4, e5⟩ := block_indices ⟨(i 0).val / 512, ht⟩
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, ht⟩ (1 : Fin 2) * 1024 ≤ (i 1).val ∧ (i 1).val < win0_2.index ⟨(i 0).val / 512, ht⟩ (1 : Fin 2) * 1024 + 1024
    rw [e5]; omega

/-- After the first call its result array holds adj times the scaled weights. -/
theorem result_array (c : Dev nD) :
    (dat0 V c).arrAt 2 cfg0.N = hiddenArr (V c main_arg1) (V c main_arg3) :=
  (dat0 V c).arrAt_eq_of_cover 2 (hiddenArr (V c main_arg1) (V c main_arg3)) (fun t _ => flushed_eq V c t) covered

end Cert.KernelIdeal.FirstCall

end
-- ==== Proof.SecondCall.lean ====
/-
  The two arrays the second call leaves, whatever the buffers hold when the call is entered.

  Grid point t of 128 is (t / 16, t % 16): it stages rows 1024 (t / 16) … of the first product h, columns 512 (t % 16) … of
  inputs x, the divisors of those rows as a column d, and writes back the block at (t / 16, t % 16) of both results.
  Entry (p, q) of its matrix product is row 1024 (t / 16) + p of h against column 512 (t % 16) + q of x — entry
  (r, s) of the whole second product at the entry's own place (r, s) in the array. So the first result's block is the
  thresholded activation of that entry over d (r, 0), the second the threshold test's bit as a 32-bit word; entry (r, s)
  lies in the block of point (r / 1024) * 16 + s / 512, so the blocks cover both arrays.
-/
import proofs.«137822_j29025388986856_2_alg».proof.Proof.Gen.KernelIdeal.Frame
import proofs.«137822_j29025388986856_2_alg».proof.Proof.Payloads
import Idealize.ShloMosaic.Lib.Pipeline.Value

noncomputable section

namespace Cert.KernelIdeal.SecondCall

open Cert.KernelIdeal Cert.KernelIdeal.Gen Idealize.ShloMosaic Idealize.ShloMosaic.TcCoe Idealize.SL.Sem
open Idealize.ShloMosaic.ValueIdx Cert.Spec
open Idealize.ShloMosaic.Pipeline (Dat)

/-- The first result from the first product h, inputs x and the divisors as a column d. -/
def outFrom (h : FVec Ideal ⟨2, ![8192, 1024]⟩ .f32) (x : FVec Ideal ⟨2, ![1024, 8192]⟩ .f32) (d : FVec Ideal ⟨2, ![8192, 1]⟩ .f32) :
    FVec Ideal ⟨2, ![8192, 8192]⟩ .f32 :=
  fun i => outOf (preOf h x (i 0) (i 1)) (d (ix2 (i 0) (0 : Fin 1)))

/-- The second result as the call stores it: the threshold test's bit as a 32-bit word. -/
def maskWordsFrom (h : FVec Ideal ⟨2, ![8192, 1024]⟩ .f32) (x : FVec Ideal ⟨2, ![1024, 8192]⟩ .f32) : IVec ⟨2, ![8192, 8192]⟩ 32 :=
  fun i => (maskOf (preOf h x (i 0) (i 1))).setWidth 32

variable (V : (c : Dev nD) → (b : Ref sig .tc) → Buf (Elt Ideal) ((c : Thread nD τ).loc b))

theorem zero_offsets : (![0, 0] : Fin 2 → Nat) = fun _ => 0 := funext fun a => by fin_cases a <;> rfl

/-- The five index maps over the 128 points. -/
theorem block_indices : ∀ t : Fin cfg1.N, win1_3.index t (0 : Fin 2) = t.val / 16 ∧ win1_3.index t (1 : Fin 2) = t.val % 16
    ∧ win1_0.index t (0 : Fin 2) = t.val / 16 ∧ win1_0.index t (1 : Fin 2) = 0
    ∧ win1_1.index t (0 : Fin 2) = 0 ∧ win1_1.index t (1 : Fin 2) = t.val % 16
    ∧ win1_2.index t (0 : Fin 2) = t.val / 16 ∧ win1_2.index t (1 : Fin 2) = 0
    ∧ win1_4.index t (0 : Fin 2) = t.val / 16 ∧ win1_4.index t (1 : Fin 2) = t.val % 16 :=
  (by decide +kernel : ∀ t : Fin grid1.N, _)

/-- Entry (p, q) of point t's matrix product is entry (r, s) of the whole second product, (r, s) the entry's place in the array. -/
theorem product_entry (c : Dev nD) (t : Fin cfg1.N) (p : Fin 1024) (q : Fin 512) (r s : Fin 8192)
    (hr : r.val = t.val / 16 * 1024 + p.val) (hs : s.val = t.val % 16 * 512 + q.val) :
    k1_pay1 (F := Ideal) (iblk1 V c 0 t) (iblk1 V c 1 t) (ix2 p q)
      = preOf (V c main_v0 : S8192x1024.Idx → EReal) (V c main_v1 : S1024x8192.Idx → EReal) r s := by
  rw [Payload.second_product]
  unfold preOf
  obtain ⟨-, -, e0, e1, e2, e3, -, -, -, -⟩ := block_indices t
  refine Finset.sum_congr rfl fun j _ => ?_
  have h0 : ((cfg1.win 0).blk t).view.emb (ix2 p j) = ix2 r j := by
    funext a; apply Fin.ext
    match a with
    | ⟨0, _⟩ => show win1_0.index t (0 : Fin 2) * 1024 + 1 * p.val = r.val; rw [e0, hr]; omega
    | ⟨1, _⟩ => show win1_0.index t (1 : Fin 2) * 1024 + 1 * j.val = j.val; rw [e1]; omega
  have h1 : ((cfg1.win 1).blk t).view.emb (ix2 j q) = ix2 j s := by
    funext a; apply Fin.ext
    match a with
    | ⟨0, _⟩ => show win1_1.index t (0 : Fin 2) * 1024 + 1 * j.val = j.val; rw [e2]; omega
    | ⟨1, _⟩ => show win1_1.index t (1 : Fin 2) * 512 + 1 * q.val = s.val; rw [e3, hs]; omega
  have key : ∀ (H : S8192x1024.Idx → EReal) (X : S1024x8192.Idx → EReal),
      H (((cfg1.win 0).blk t).view.emb (ix2 p j)) * X (((cfg1.win 1).blk t).view.emb (ix2 j q)) = H (ix2 r j) * X (ix2 j s) :=
    fun H X => by rw [h0, h1]
  exact key (V c main_v0) (V c main_v1)

/-- The divisor point t's body reads for its row p is the column's entry at the row's place in the array. -/
theorem divisor_entry (c : Dev nD) (t : Fin cfg1.N) (p : Fin 1024) (r : Fin 8192) (hr : r.val = t.val / 16 * 1024 + p.val) :
    iblk1 V c 2 t (ix2 p (0 : Fin 1)) = (V c main_v2 : S8192x1.Idx → EReal) (ix2 r (0 : Fin 1)) := by
  obtain ⟨-, -, -, -, -, -, e4, e5, -, -⟩ := block_indices t
  have h2 : ((cfg1.win 2).blk t).view.emb (ix2 p (0 : Fin 1)) = ix2 r (0 : Fin 1) := by
    funext a; apply Fin.ext
    match a with
    | ⟨0, _⟩ => show win1_2.index t (0 : Fin 2) * 1024 + 1 * p.val = r.val; rw [e4, hr]; omega
    | ⟨1, _⟩ => show win1_2.index t (1 : Fin 2) * 1 + 1 * 0 = 0; rw [e5]
  show (V c main_v2 : S8192x1.Idx → EReal) (((cfg1.win 2).blk t).view.emb (ix2 p (0 : Fin 1))) = _
  rw [h2]

/-- What point t writes back to the first result is its block of `outFrom`. -/
theorem flushed_out (c : Dev nD) (t : Fin cfg1.N) :
    (dat1 V c).flushed 3 t = ((cfg1.win 3).blk t).view.read (Elt Ideal) (outFrom (V c main_v0) (V c main_v1) (V c main_v2)) := by
  show (cfg1.win 3).cut (grid1.coords t) ((dat1 V c).after 3 t) = _
  rw [after1_3]
  unfold out1_3
  rw [View.canon_unit_zero zero_offsets]
  simp only [View.ld_unit_zero (S := S1024x1024) zero_offsets, View.ld_unit_zero (S := S1024x512) zero_offsets, View.ld_unit_zero (S := S1024x1) zero_offsets]
  obtain ⟨e0, e1, -, -, -, -, -, -, -, -⟩ := block_indices t
  funext j
  obtain ⟨p, q, rfl⟩ : ∃ (p : Fin 1024) (q : Fin 512), j = ix2 p q := ⟨j 0, j 1, eq_ix2 j⟩
  show k1_pay2 (F := Ideal) (iblk1 V c 0 t) (iblk1 V c 1 t) (iblk1 V c 2 t) (ix2 p q)
    = outFrom (V c main_v0) (V c main_v1) (V c main_v2) (((cfg1.win 3).blk t).view.emb (ix2 p q))
  have hr : ((((cfg1.win 3).blk t).view.emb (ix2 p q)) 0).val = t.val / 16 * 1024 + p.val := by
    show win1_3.index t (0 : Fin 2) * 1024 + 1 * p.val = _; rw [e0]; omega
  have hs : ((((cfg1.win 3).blk t).view.emb (ix2 p q)) 1).val = t.val % 16 * 512 + q.val := by
    show win1_3.index t (1 : Fin 2) * 512 + 1 * q.val = _; rw [e1]; omega
  rw [Payload.out_entry, product_entry V c t p q _ _ hr hs, divisor_entry V c t p _ hr]
  rfl

/-- What point t writes back to the second result is its block of `maskWordsFrom`. -/
theorem flushed_mask (c : Dev nD) (t : Fin cfg1.N) :
    (dat1 V c).flushed 4 t = ((cfg1.win 4).blk t).view.read (Elt Ideal) (maskWordsFrom (V c main_v0) (V c main_v1)) := by
  show (cfg1.win 4).cut (grid1.coords t) ((dat1 V c).after 4 t) = _
  rw [after1_4]
  unfold out1_4
  rw [View.canon_unit_zero zero_offsets]
  simp only [View.ld_unit_zero (S := S1024x1024) zero_offsets, View.ld_unit_zero (S := S1024x512) zero_offsets]
  obtain ⟨-, -, -, -, -, -, -, -, e8, e9⟩ := block_indices t
  funext j
  obtain ⟨p, q, rfl⟩ : ∃ (p : Fin 1024) (q : Fin 512), j = ix2 p q := ⟨j 0, j 1, eq_ix2 j⟩
  show k1_pay3 (F := Ideal) (iblk1 V c 0 t) (iblk1 V c 1 t) (ix2 p q)
    = maskWordsFrom (V c main_v0) (V c main_v1) (((cfg1.win 4).blk t).view.emb (ix2 p q))
  have hr : ((((cfg1.win 4).blk t).view.emb (ix2 p q)) 0).val = t.val / 16 * 1024 + p.val := by
    show win1_4.index t (0 : Fin 2) * 1024 + 1 * p.val = _; rw [e8]; omega
  have hs : ((((cfg1.win 4).blk t).view.emb (ix2 p q)) 1).val = t.val % 16 * 512 + q.val := by
    show win1_4.index t (1 : Fin 2) * 512 + 1 * q.val = _; rw [e9]; omega
  rw [Payload.mask_entry, product_entry V c t p q _ _ hr hs]
  rfl

/-- An entry lies in point t's block of the first result iff each coordinate lies in the block's range. -/
theorem mem_block_out (t : Fin cfg1.N) (i : S8192x8192.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v3_0).slice (win1_3.rect t)).set ↔ _
  rw [View.set_slice_whole, Rect.mem_set_unit]
  exact Iff.rfl

/-- The same for the second result. -/
theorem mem_block_mask (t : Fin cfg1.N) (i : S8192x8192.Idx) :
    i ∈ ((cfg1.win 4).blk t).view.set ↔ ∀ a : Fin 2, win1_4.index t a * S1024x512.size a ≤ (i a).val ∧ (i a).val < win1_4.index t a * S1024x512.size a + S1024x512.size a := by
  show i ∈ ((View.whole main_v3_1).slice (win1_4.rect t)).set ↔ _
  rw [View.set_slice_whole, Rect.mem_set_unit]
  exact Iff.rfl

/-- The point whose block holds entry (r, s): (r / 1024) * 16 + s / 512. -/
theorem point_lt (i : S8192x8192.Idx) : (i 0).val / 1024 * 16 + (i 1).val / 512 < cfg1.N := by
  have h0 : (i 0).val < 8192 := (i 0).isLt
  have h1 : (i 1).val < 8192 := (i 1).isLt
  rw [show cfg1.N = 128 from N_1]; omega

theorem covered_out (i : S8192x8192.Idx) : ∃ t : Fin cfg1.N, (cfg1.win 3).flush t = true ∧ i ∈ ((cfg1.win 3).blk t).view.set := by
  have h0 : (i 0).val < 8192 := (i 0).isLt
  have h1 : (i 1).val < 8192 := (i 1).isLt
  refine ⟨⟨_, point_lt i⟩, flush1_3 _, ?_⟩
  rw [mem_block_out]
  obtain ⟨e0, e1, -, -, -, -, -, -, -, -⟩ := block_indices ⟨_, point_lt i⟩
  intro a
  match a with
  | ⟨0, _⟩ =>
    show win1_3.index ⟨_, point_lt i⟩ (0 : Fin 2) * 1024 ≤ (i 0).val ∧ (i 0).val < win1_3.index ⟨_, point_lt i⟩ (0 : Fin 2) * 1024 + 1024
    rw [e0]; show ((i 0).val / 1024 * 16 + (i 1).val / 512) / 16 * 1024 ≤ (i 0).val ∧ (i 0).val < ((i 0).val / 1024 * 16 + (i 1).val / 512) / 16 * 1024 + 1024; omega
  | ⟨1, _⟩ =>
    show win1_3.index ⟨_, point_lt i⟩ (1 : Fin 2) * 512 ≤ (i 1).val ∧ (i 1).val < win1_3.index ⟨_, point_lt i⟩ (1 : Fin 2) * 512 + 512
    rw [e1]; show ((i 0).val / 1024 * 16 + (i 1).val / 512) % 16 * 512 ≤ (i 1).val ∧ (i 1).val < ((i 0).val / 1024 * 16 + (i 1).val / 512) % 16 * 512 + 512; omega

theorem covered_mask (i : S8192x8192.Idx) : ∃ t : Fin cfg1.N, (cfg1.win 4).flush t = true ∧ i ∈ ((cfg1.win 4).blk t).view.set := by
  have h0 : (i 0).val < 8192 := (i 0).isLt
  have h1 : (i 1).val < 8192 := (i 1).isLt
  refine ⟨⟨_, point_lt i⟩, flush1_4 _, ?_⟩
  rw [mem_block_mask]
  obtain ⟨-, -, -, -, -, -, -, -, e8, e9⟩ := block_indices ⟨_, point_lt i⟩
  intro a
  match a with
  | ⟨0, _⟩ =>
    show win1_4.index ⟨_, point_lt i⟩ (0 : Fin 2) * 1024 ≤ (i 0).val ∧ (i 0).val < win1_4.index ⟨_, point_lt i⟩ (0 : Fin 2) * 1024 + 1024
    rw [e8]; show ((i 0).val / 1024 * 16 + (i 1).val / 512) / 16 * 1024 ≤ (i 0).val ∧ (i 0).val < ((i 0).val / 1024 * 16 + (i 1).val / 512) / 16 * 1024 + 1024; omega
  | ⟨1, _⟩ =>
    show win1_4.index ⟨_, point_lt i⟩ (1 : Fin 2) * 512 ≤ (i 1).val ∧ (i 1).val < win1_4.index ⟨_, point_lt i⟩ (1 : Fin 2) * 512 + 512
    rw [e9]; show ((i 0).val / 1024 * 16 + (i 1).val / 512) % 16 * 512 ≤ (i 1).val ∧ (i 1).val < ((i 0).val / 1024 * 16 + (i 1).val / 512) % 16 * 512 + 512; omega

/-- After the second call its first result array is `outFrom` of the three arrays it read. -/
theorem out_array (c : Dev nD) :
    (dat1 V c).arrAt 3 cfg1.N = outFrom (V c main_v0) (V c main_v1) (V c main_v2) :=
  (dat1 V c).arrAt_eq_of_cover 3 (outFrom (V c main_v0) (V c main_v1) (V c main_v2)) (fun t _ => flushed_out V c t) covered_out

/-- After the second call its second result array is `maskWordsFrom` of the two arrays the product read. -/
theorem mask_array (c : Dev nD) :
    (dat1 V c).arrAt 4 cfg1.N = maskWordsFrom (V c main_v0) (V c main_v1) :=
  (dat1 V c).arrAt_eq_of_cover 4 (maskWordsFrom (V c main_v0) (V c main_v1)) (fun t _ => flushed_mask V c t) covered_mask

end Cert.KernelIdeal.SecondCall

end
-- ==== Proof.LibIdx.lean ====
/-
  Sums over a rank-1 index set by its one coordinate, and the column forms of a shape cast that a sum with
  `keepdims` meets: a vector [a] viewed as a column [a, 1], and a one-element vector [1] viewed as [1, 1].
-/
import Idealize.ShloMosaic.Lib.Pipeline.Value
import Idealize.ShloMosaic.Lib.ValueIdx

noncomputable section

namespace Cert.LibIdx

open Idealize.ShloMosaic Idealize.ShloMosaic.ValueIdx
open scoped BigOperators

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, 1] array is (0, 0). -/
theorem idx11_eq (y : (⟨2, ![1, 1]⟩ : Shape).Idx) : y = ix2 (0 : Fin 1) (0 : Fin 1) := by
  funext a
  match a with
  | ⟨0, _⟩ => exact Subsingleton.elim (α := Fin 1) _ _
  | ⟨1, _⟩ => exact Subsingleton.elim (α := Fin 1) _ _

end Cert.LibIdx

end
-- ==== Proof.Boundaries.lean ====
/-
  The buffers read back through the program's boundaries.

  Between the two calls the host writes inputs in bf16 (the identity on extended reals) and the divisors as a column
  (entry (r, 0) is the divisor of row r); it leaves the first call's array alone. After the second call the host leaves
  the first result alone and replaces the second call's 32-bit words by the bits (word ≠ 0): a bit widened to a word
  differs from zero exactly when it is set. So the first result is the thresholded activation of the second product over
  the row's divisor, and the second result the threshold test of the second product, entry by entry.
-/
import proofs.«137822_j29025388986856_2_alg».proof.Proof.Gen.KernelIdeal.Frame
import proofs.«137822_j29025388986856_2_alg».proof.Proof.FirstCall
import proofs.«137822_j29025388986856_2_alg».proof.Proof.SecondCall
import proofs.«137822_j29025388986856_2_alg».proof.Proof.LibIdx
import Idealize.ShloMosaic.Lib.StableHlo.Run
import Idealize.ShloMosaic.Lib.Pipeline.Value

noncomputable section

namespace Cert.KernelIdeal.Boundary

open Cert.KernelIdeal Cert.KernelIdeal.Gen
open Idealize.ShloMosaic Idealize.ShloMosaic.TcCoe Idealize.SL.Sem Idealize.ShloMosaic.StableHlo
open Idealize.ShloMosaic.ValueIdx Cert.Spec

variable (m : (ℓ : Loc nD τ sig) → Buf (Elt Ideal) ℓ) (ρ : Dev nD → PrngReg)

/-- The second call finds the first call's array: adj times the scaled weights. -/
theorem entry_hidden (c : Dev nD) :
    V2 m ρ c main_v0 = hiddenArr (m ((c : Thread nD τ).loc main_arg1)) (m ((c : Thread nD τ).loc main_arg3)) := by
  have h : V2 m ρ c main_v0 = W1 m ρ c (Proc.devRef .tc main_v0) := by
    show StableHlo.after hostOps1 (W1 m ρ c) (Proc.devRef .tc main_v0) = _
    after_results <;> rfl
  rw [h]
  exact (W1_arr m ρ c 2).trans (FirstCall.result_array (V0 m ρ) c)

/-- The second call finds inputs unchanged by the change of format. -/
theorem entry_inputs (c : Dev nD) :
    (V2 m ρ c main_v1 : S1024x8192.Idx → EReal) = m ((c : Thread nD τ).loc main_arg0) := by
  have h : V2 m ρ c main_v1 = ((truncf (F := Ideal) .bf16 · bitsLt_bf16_f32) : (⟨S1024x8192, .f32⟩ : BufTy).Contents (Elt Ideal) → (⟨S1024x8192, .bf16⟩ : BufTy).Contents (Elt Ideal)) (W1 m ρ c (Proc.devRef .tc main_arg0)) := by
    show StableHlo.after hostOps1 (W1 m ρ c) (Proc.devRef .tc main_v1) = _
    after_results <;> rfl
  rw [h, W1_of_ne m ρ c main_arg0 (by decide)]
  rfl

/-- The second call finds the divisors as a column: entry (r, 0) is the divisor of row r. -/
theorem entry_column (c : Dev nD) (r : Fin 8192) :
    V2 m ρ c main_v2 (ix2 r (0 : Fin 1)) = m ((c : Thread nD τ).loc main_arg2) (ix1 r) := by
  have h : V2 m ρ c main_v2 = fun i => shapeCast S8192x1 (W1 m ρ c (Proc.devRef .tc main_arg2)) shapeCasts_S8192_S8192x1 i := by
    show StableHlo.after hostOps1 (W1 m ρ c) (Proc.devRef .tc main_v2) = _
    after_results <;> rfl
  rw [h, W1_of_ne m ρ c main_arg2 (by decide)]
  exact LibIdx.shapeCast_a_a1_apply _ _ r 0

/-- The first result at the last boundary. -/
theorem out_value (c : Dev nD) :
    W4 m ρ c (Proc.devRef .tc main_v3_0)
      = outArr (m ((c : Thread nD τ).loc main_arg0)) (m ((c : Thread nD τ).loc main_arg1)) (m ((c : Thread nD τ).loc main_arg2)) (m ((c : Thread nD τ).loc main_arg3)) := by
  have h : W4 m ρ c (Proc.devRef .tc main_v3_0) = W3 m ρ c (Proc.devRef .tc main_v3_0) := by
    show StableHlo.after hostOps2 (W3 m ρ c) (Proc.devRef .tc main_v3_0) = _
    after_results <;> rfl
  rw [h]
  refine ((W3_arr m ρ c 3).trans (SecondCall.out_array (V2 m ρ) c)).trans ?_
  funext i
  show outOf (preOf (V2 m ρ c main_v0) (V2 m ρ c main_v1) (i 0) (i 1)) (V2 m ρ c main_v2 (ix2 (i 0) (0 : Fin 1))) = _
  rw [entry_hidden m ρ c, entry_inputs m ρ c, entry_column m ρ c (i 0)]
  rfl

/-- The second result at the last boundary. -/
theorem mask_value (c : Dev nD) :
    W4 m ρ c (Proc.devRef .tc main_v6)
      = maskArr (m ((c : Thread nD τ).loc main_arg0)) (m ((c : Thread nD τ).loc main_arg1)) (m ((c : Thread nD τ).loc main_arg3)) := by
  have h : W4 m ρ c (Proc.devRef .tc main_v6)
      = id (cmpi .ne (W3 m ρ c (Proc.devRef .tc main_v3_1)) (broadcastInDim S8192x8192 ![] bcast_S_S8192x8192 (constantI S_ 32 0#32))) := by
    show StableHlo.after hostOps2 (W3 m ρ c) (Proc.devRef .tc main_v6) = _
    after_results <;> rfl
  have e : W3 m ρ c (Proc.devRef .tc main_v3_1) = SecondCall.maskWordsFrom (V2 m ρ c main_v0) (V2 m ρ c main_v1) :=
    (W3_arr m ρ c 4).trans (SecondCall.mask_array (V2 m ρ) c)
  rw [h, e, entry_hidden m ρ c, entry_inputs m ρ c]
  funext i
  show IntOp.cmpi .ne ((maskOf (preOf _ _ (i 0) (i 1))).setWidth 32) (broadcastInDim S8192x8192 ![] bcast_S_S8192x8192 (constantI S_ 32 0#32) i) = _
  rw [broadcastInDim_apply _ bcast_S_S8192x8192 (constantI S_ 32 0#32) i (fun a => a.elim0) (fun a => a.elim0)]
  exact ne_zero_of_widened _

end Cert.KernelIdeal.Boundary

end
-- ==== Proof.KernelValue.lean ====
/-
  The kernel program's run with both results named: the run to the last boundary, the boundary's contents read back to
  the four argument arrays.
-/
import proofs.«137822_j29025388986856_2_alg».proof.Proof.KernelRun
import proofs.«137822_j29025388986856_2_alg».proof.Proof.Boundaries

noncomputable section

namespace Cert.KernelIdeal.Whole

open Cert.KernelIdeal Cert.KernelIdeal.Gen Idealize.ShloMosaic Idealize.ShloMosaic.TcCoe Idealize.SL.Sem Cert.Spec

/-- Every weakly fair execution of the kernel program terminates with the first result at the thresholded activation of
    (adj times the scaled weights) times inputs over the rows' divisors, the second at the threshold test of the same
    product, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3_0)
        = outArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6)
        = maskArr (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (Boundary.out_value m ρ c), (h c).2.1.trans (Boundary.mask_value m ρ c), (h c).2.2⟩)
    (run_boundary m ρ)

end Cert.KernelIdeal.Whole

end
-- ==== Proof.ReferenceValue.lean ====
/-
  The reference program computes the same two functions.

  Its first product divides the weights by seventeen where the kernel multiplies them by the named seventeenth: the
  quotient by the real 17 is the product with 1/17 on every extended real. Everything after it is the same chain of
  operations read entry by entry: the second product, the two comparisons against the words of 0.6 and 1, their
  conjunction, the selection against the fill value 1, the quotient by the row's divisor (the divisors made a column
  and spread over the lanes read the row's own), and the threshold test.
-/
import proofs.«137822_j29025388986856_2_alg».proof.Proof.Gen.ReferenceIdeal.Read
import proofs.«137822_j29025388986856_2_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx Cert.Spec

/-- The reference's first product is adj times the scaled weights. -/
theorem hidden_ref (x1 : FVec Ideal S8192x1024 .f32) (x3 : FVec Ideal S1024x1024 .f32) :
    val_main_v2 (F := Ideal) x1 x3 = hiddenArr x1 x3 := by
  funext i
  obtain ⟨p, q, rfl⟩ : ∃ (p : Fin 8192) (q : Fin 1024), i = ix2 p q := ⟨i 0, i 1, eq_ix2 i⟩
  rw [val_main_v2_apply]
  show _ = Spec.hidden x1 x3 p q
  unfold Spec.hidden
  refine Finset.sum_congr rfl fun k _ => ?_
  have el : lidx_main_v2 (ix2 p q) k = ix2 p k := funext fun a => Fin.ext (by
    match a with
    | ⟨0, _⟩ => rfl
    | ⟨1, _⟩ => rfl)
  have er : ridx_main_v2 (ix2 p q) k = ix2 k q := funext fun a => Fin.ext (by
    match a with
    | ⟨0, _⟩ => rfl
    | ⟨1, _⟩ => rfl)
  rw [el, er, val_main_v1_apply, val_main_v0_apply, val_main_cst_apply]
  exact congrArg (x1 (ix2 p k) * ·) (div_17 (x3 (ix2 k q)))

/-- The reference's second product at an entry. -/
theorem pre_ref (x0 : FVec Ideal S1024x8192 .f32) (x1 : FVec Ideal S8192x1024 .f32) (x3 : FVec Ideal S1024x1024 .f32)
    (i : S8192x8192.Idx) :
    val_main_v3 (F := Ideal) x0 x1 x3 i = preOf (hiddenArr x1 x3) x0 (i 0) (i 1) := by
  rw [val_main_v3_apply, hidden_ref]
  unfold preOf
  refine Finset.sum_congr rfl fun k _ => ?_
  have el : lidx_main_v3 i k = ix2 (i 0) k := funext fun a => Fin.ext (by
    match a with
    | ⟨0, _⟩ => rfl
    | ⟨1, _⟩ => rfl)
  have er : ridx_main_v3 i k = ix2 k (i 1) := funext fun a => Fin.ext (by
    match a with
    | ⟨0, _⟩ => rfl
    | ⟨1, _⟩ => rfl)
  rw [el, er] <;> rfl

/-- The reference's first result is `outArr`. -/
theorem out_ref (x0 : FVec Ideal S1024x8192 .f32) (x1 : FVec Ideal S8192x1024 .f32) (x2 : FVec Ideal S8192 .f32)
    (x3 : FVec Ideal S1024x1024 .f32) :
    val_main_v13 (F := Ideal) x0 x1 x2 x3 = outArr x0 x1 x2 x3 := by
  funext i
  have hd : idx_main_v11 (idx_main_v12 i) = ix1 (i 0) := funext fun a => Fin.ext (by
    match a with
    | ⟨0, _⟩ => rfl)
  rw [val_main_v13_apply, val_main_v10_apply, val_main_v8_apply, val_main_v5_apply, val_main_v7_apply, pre_ref,
    val_main_v12_apply, val_main_v11_apply, hd, val_main_v4_apply, val_main_v6_apply, val_main_v9_apply]
  rfl

/-- The reference's second result is `maskArr`. -/
theorem mask_ref (x0 : FVec Ideal S1024x8192 .f32) (x1 : FVec Ideal S8192x1024 .f32) (x3 : FVec Ideal S1024x1024 .f32) :
    val_main_v15 (F := Ideal) x0 x1 x3 = maskArr x0 x1 x3 := by
  funext i
  rw [val_main_v15_apply, pre_ref, val_main_v14_apply]
  rfl

end Cert.ReferenceIdeal.RefValue

end
-- ==== Proof.lean ====
/-
  The kernel computes out = act ((adj (w / 17)) inputs) / prob and mask = ((adj (w / 17)) inputs > 0.6) in two calls —
  adj times the weights scaled by the named seventeenth; then that product times inputs, thresholded, divided by the
  rows' divisors, with the threshold test stored as words and turned back into bits on the host — and the reference
  computes the same with two whole matrix products and a quotient of the weights by seventeen.

  Over the extended reals both are one function of the four argument arrays, entry by entry (Proof/Spec.lean): a change
  of float format is the identity, both kinds of matrix product are the plain sum over the contracted coordinate, and
  x / 17 = x * (1/17) for every extended real x, so no finiteness of the inputs is needed. The kernel side is the
  program's run to its last boundary (Proof/KernelRun.lean) read back through the two calls' arrays
  (Proof/FirstCall.lean, Proof/SecondCall.lean, Proof/Boundaries.lean); the reference side is its run read one
  operation at a time (Proof/ReferenceValue.lean).
-/
import proofs.«137822_j29025388986856_2_alg».proof.Defs
import proofs.«137822_j29025388986856_2_alg».proof.Proof.Gen.Kernel
import proofs.«137822_j29025388986856_2_alg».proof.Proof.Gen.Kernel.Skeleton
import proofs.«137822_j29025388986856_2_alg».proof.Proof.Gen.Kernel.Launch
import proofs.«137822_j29025388986856_2_alg».proof.Proof.Gen.Kernel.Points
import proofs.«137822_j29025388986856_2_alg».proof.Proof.Gen.Kernel.Frame
import proofs.«137822_j29025388986856_2_alg».proof.Proof.Gen.KernelIdeal
import proofs.«137822_j29025388986856_2_alg».proof.Proof.Gen.KernelIdeal.Skeleton
import proofs.«137822_j29025388986856_2_alg».proof.Proof.Gen.KernelIdeal.Launch
import proofs.«137822_j29025388986856_2_alg».proof.Proof.Gen.KernelIdeal.Points
import proofs.«137822_j29025388986856_2_alg».proof.Proof.Gen.KernelIdeal.Frame
import proofs.«137822_j29025388986856_2_alg».proof.Proof.Gen.ReferenceIdeal
import proofs.«137822_j29025388986856_2_alg».proof.Proof.Gen.Pre_finite_inputs
import proofs.«137822_j29025388986856_2_alg».proof.Proof.Gen.ReferenceIdeal.Run
import proofs.«137822_j29025388986856_2_alg».proof.Proof.Gen.ReferenceIdeal.Read
import proofs.«137822_j29025388986856_2_alg».proof.Proof.KernelValue
import proofs.«137822_j29025388986856_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: the certificate's table gives the name the value 1/17, and the printed constant
    is that value at the ideal instance. -/
theorem preserves : Cert.preserves_Kernel_KernelIdeal :=
  IdealRules.named_const.statement Cert.KernelIdeal.κ "inv_17" .f32 0x3D70F0F1#32 ((1 / 17 : ℝ) : EReal) rfl

/-- Both programs end with both results at the same two functions of arguments that agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ?_) (Cert.ReferenceIdeal.Value.run (F := Ideal) m' ρ')
  obtain ⟨h13, h15, hargs⟩ := h c
  obtain ⟨a0, a1, a2, a3⟩ := hagree c
  refine ⟨?_, ?_, hargs⟩
  · rw [h13, Cert.ReferenceIdeal.Read.val_main_v13_eq, Cert.ReferenceIdeal.RefValue.out_ref, a0, a1, a2, a3]
  · rw [h15, Cert.ReferenceIdeal.Read.val_main_v15_eq, Cert.ReferenceIdeal.RefValue.mask_ref, a0, a1, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
